-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S10000x32 : Shape := ⟨2, ![10000, 32]⟩
abbrev S1600000x32 : Shape := ⟨2, ![1600000, 32]⟩
abbrev S1x32 : Shape := ⟨2, ![1, 32]⟩

abbrev nBuf : Space → Nat
  | .hbm => 82
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S1600000x1, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x32, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x32, .f32⟩
  | .hbm, ⟨71, _⟩ => ⟨S1600000x1, .f32⟩
  | .hbm, ⟨72, _⟩ => ⟨S1600000x32, .f32⟩
  | .hbm, ⟨73, _⟩ => ⟨S1600000x32, .f32⟩
  | .hbm, ⟨74, _⟩ => ⟨S_, .f32⟩
  | .hbm, ⟨75, _⟩ => ⟨S100000x32, .f32⟩
  | .hbm, ⟨76, _⟩ => ⟨S1600000x1, .i32⟩
  | .hbm, ⟨77, _⟩ => ⟨S100000x32, .f32⟩
  | .hbm, ⟨78, _⟩ => ⟨S100000x1, .f32⟩
  | .hbm, ⟨79, _⟩ => ⟨S100000x32, .f32⟩
  | .hbm, ⟨80, _⟩ => ⟨S100000x32, .f32⟩
  | .hbm, ⟨81, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S32, .f32⟩
  | .local _ .vmem, ⟨22, _⟩ => ⟨S10000x32, .f32⟩
  | .local _ .vmem, ⟨23, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  shapeCasts_S10000x32_S10000x32 : S10000x32.ShapeCasts S10000x32
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32.size a ≤ S32.size a
  hwx3_2 : ∀ i : grid3.Coords, EltTy.bits .f32 = 32 ∨ (Rect.block (s := S32) S32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S1x1600000, .i32⟩
  | .hbm, ⟨68, _⟩ => ⟨S1600000, .i32⟩
  | .hbm, ⟨69, _⟩ => ⟨S1x1600000, .i32⟩
  | .hbm, ⟨70, _⟩ => ⟨S1600000, .i32⟩
  | .hbm, ⟨71, _⟩ => ⟨S100000x32, .f32⟩
  | .hbm, ⟨72, _⟩ => ⟨S_, .f32⟩
  | .hbm, ⟨73, _⟩ => ⟨S1600000, .f32⟩
  | .hbm, ⟨74, _⟩ => ⟨S_, .f32⟩
  | .hbm, ⟨75, _⟩ => ⟨S100000, .f32⟩
  | .hbm, ⟨76, _⟩ => ⟨S1600000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000, .f32⟩
  | .hbm, ⟨100, _⟩ => ⟨S1600000, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x32, .f32⟩
  | .hbm, ⟨110, _⟩ => ⟨S1600000x1, .f32⟩
  | .hbm, ⟨111, _⟩ => ⟨S1600000x32, .f32⟩
  | .hbm, ⟨112, _⟩ => ⟨S1600000x32, .f32⟩
  | .hbm, ⟨113, _⟩ => ⟨S_, .f32⟩
  | .hbm, ⟨114, _⟩ => ⟨S100000x32, .f32⟩
  | .hbm, ⟨115, _⟩ => ⟨S1600000x1, .i32⟩
  | .hbm, ⟨116, _⟩ => ⟨S100000x32, .f32⟩
  | .hbm, ⟨117, _⟩ => ⟨S100000, .f32⟩
  | .hbm, ⟨118, _⟩ => ⟨S100000x1, .f32⟩
  | .hbm, ⟨119, _⟩ => ⟨S100000x32, .f32⟩
  | .hbm, ⟨120, _⟩ => ⟨S100000x32, .f32⟩
  | .hbm, ⟨121, _⟩ => ⟨S100000x32, .f32⟩
  | .hbm, ⟨122, _⟩ => ⟨S1x32, .f32⟩
  | .hbm, ⟨123, _⟩ => ⟨S100000x32, .f32⟩
  | .hbm, ⟨124, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The idealized kernel's run with its result named. @main is seven segments: three stretches of host operations and
  four kernel regions. Every unscoped buffer of a core ends at the last segment boundary's contents; read at the
  result buffer, that is the last region's output array after all of its write-backs, and read at an argument it is
  the launch contents, because no host operation and no region writes an argument.
-/
import proofs.«181619_j18056042512717_1_alg».proof.Proof.Gen.KernelIdeal.Frame

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the contents of the
    last segment boundary, and every argument array as launched. -/
theorem run_result : θ_run defs (onTc (τ := τ) (main (F := F))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Layers

end
-- ==== Proof.NotWritten.lean ====
/-
  A buffer that none of a list of host operations writes holds after them what it held before. The tactic below
  closes such a goal for a literal list: it lists what each operation writes and compares the references.
-/
import Idealize.ShloMosaic.Lib.StableHlo.Run

namespace Cert.KernelIdeal.Layers

open Idealize.ShloMosaic

/-- `after ops W b = W b` for a literal list `ops` none of whose operations writes `b`. -/
macro "not_written " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

end Cert.KernelIdeal.Layers
-- ==== Proof.Host0.lean ====
/-
  The host operations before the first kernel region, read as functions of the edge list: the source and target
  node of every edge, the symmetric normalisation of every edge (the product of the inverse square roots of the two
  end points' degrees, a degree counting the incoming edges and the self loop), and the squared inverse square root
  of every node's degree. These are the same operations the reference applies, so each buffer is the reference's
  stage of the same name of the edge list. The float arguments are not written.
-/
import proofs.«181619_j18056042512717_1_alg».proof.Proof.Gen.KernelIdeal.Launch
import proofs.«181619_j18056042512717_1_alg».proof.Proof.Gen.ReferenceIdeal.Read
import Idealize.ShloMosaic.Lib.StableHlo.Run
import proofs.«181619_j18056042512717_1_alg».proof.Proof.NotWritten

set_option maxRecDepth 16384

noncomputable section

namespace Cert.KernelIdeal.Layers

open Idealize.ShloMosaic Idealize.ShloMosaic.TcCoe Idealize.ShloMosaic.StableHlo
open Cert.KernelIdeal Cert.KernelIdeal.Gen

variable {F : FTy → Type} [FloatOps F]

set_option maxHeartbeats 4000000 in
/-- The source node of every edge. -/
theorem stretch0_src (W : Valuation τ sig (Elt F)) (x1 : (⟨S2x1600000, .i32⟩ : BufTy).Contents (Elt F))
    (h : W (Proc.devRef .tc main_arg1) = x1) :
    StableHlo.after hostOps0 W (Proc.devRef .tc main_v1) = Cert.ReferenceIdeal.Read.val_main_v1 (F := F) x1 := by
  dsimp only [hostOps0]
  after_results
  rw [h]
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst, Cert.ReferenceIdeal.Read.val_main_v5, Cert.ReferenceIdeal.Read.val_main_cst_0, Cert.ReferenceIdeal.Read.val_main_v6, Cert.ReferenceIdeal.Read.val_main_v7, Cert.ReferenceIdeal.Read.val_main_v8, Cert.ReferenceIdeal.Read.val_main_cst_1, Cert.ReferenceIdeal.Read.val_main_v9, Cert.ReferenceIdeal.Read.val_main_v10, Cert.ReferenceIdeal.Read.val_main_v11, Cert.ReferenceIdeal.Read.val_main_c, Cert.ReferenceIdeal.Read.val_main_v12, Cert.ReferenceIdeal.Read.val_main_v13, Cert.ReferenceIdeal.Read.val_main_c_2, Cert.ReferenceIdeal.Read.val_main_v14, Cert.ReferenceIdeal.Read.val_main_v15, Cert.ReferenceIdeal.Read.val_main_v16, Cert.ReferenceIdeal.Read.val_main_v17, Cert.ReferenceIdeal.Read.val_main_v18, Cert.ReferenceIdeal.Read.val_main_c_3, Cert.ReferenceIdeal.Read.val_main_v19, Cert.ReferenceIdeal.Read.val_main_v20, Cert.ReferenceIdeal.Read.val_main_c_4, Cert.ReferenceIdeal.Read.val_main_v21, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v40]
  all_goals rfl

set_option maxHeartbeats 4000000 in
/-- The target node of every edge. -/
theorem stretch0_dst (W : Valuation τ sig (Elt F)) (x1 : (⟨S2x1600000, .i32⟩ : BufTy).Contents (Elt F))
    (h : W (Proc.devRef .tc main_arg1) = x1) :
    StableHlo.after hostOps0 W (Proc.devRef .tc main_v3) = Cert.ReferenceIdeal.Read.val_main_v3 (F := F) x1 := by
  dsimp only [hostOps0]
  after_results
  rw [h]
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst, Cert.ReferenceIdeal.Read.val_main_v5, Cert.ReferenceIdeal.Read.val_main_cst_0, Cert.ReferenceIdeal.Read.val_main_v6, Cert.ReferenceIdeal.Read.val_main_v7, Cert.ReferenceIdeal.Read.val_main_v8, Cert.ReferenceIdeal.Read.val_main_cst_1, Cert.ReferenceIdeal.Read.val_main_v9, Cert.ReferenceIdeal.Read.val_main_v10, Cert.ReferenceIdeal.Read.val_main_v11, Cert.ReferenceIdeal.Read.val_main_c, Cert.ReferenceIdeal.Read.val_main_v12, Cert.ReferenceIdeal.Read.val_main_v13, Cert.ReferenceIdeal.Read.val_main_c_2, Cert.ReferenceIdeal.Read.val_main_v14, Cert.ReferenceIdeal.Read.val_main_v15, Cert.ReferenceIdeal.Read.val_main_v16, Cert.ReferenceIdeal.Read.val_main_v17, Cert.ReferenceIdeal.Read.val_main_v18, Cert.ReferenceIdeal.Read.val_main_c_3, Cert.ReferenceIdeal.Read.val_main_v19, Cert.ReferenceIdeal.Read.val_main_v20, Cert.ReferenceIdeal.Read.val_main_c_4, Cert.ReferenceIdeal.Read.val_main_v21, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v40]
  all_goals rfl

set_option maxHeartbeats 4000000 in
/-- The normalisation of every edge. -/
theorem stretch0_norm (W : Valuation τ sig (Elt F)) (x1 : (⟨S2x1600000, .i32⟩ : BufTy).Contents (Elt F))
    (h : W (Proc.devRef .tc main_arg1) = x1) :
    StableHlo.after hostOps0 W (Proc.devRef .tc main_v25) = Cert.ReferenceIdeal.Read.val_main_v26 (F := F) x1 := by
  dsimp only [hostOps0]
  after_results
  rw [h]
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst, Cert.ReferenceIdeal.Read.val_main_v5, Cert.ReferenceIdeal.Read.val_main_cst_0, Cert.ReferenceIdeal.Read.val_main_v6, Cert.ReferenceIdeal.Read.val_main_v7, Cert.ReferenceIdeal.Read.val_main_v8, Cert.ReferenceIdeal.Read.val_main_cst_1, Cert.ReferenceIdeal.Read.val_main_v9, Cert.ReferenceIdeal.Read.val_main_v10, Cert.ReferenceIdeal.Read.val_main_v11, Cert.ReferenceIdeal.Read.val_main_c, Cert.ReferenceIdeal.Read.val_main_v12, Cert.ReferenceIdeal.Read.val_main_v13, Cert.ReferenceIdeal.Read.val_main_c_2, Cert.ReferenceIdeal.Read.val_main_v14, Cert.ReferenceIdeal.Read.val_main_v15, Cert.ReferenceIdeal.Read.val_main_v16, Cert.ReferenceIdeal.Read.val_main_v17, Cert.ReferenceIdeal.Read.val_main_v18, Cert.ReferenceIdeal.Read.val_main_c_3, Cert.ReferenceIdeal.Read.val_main_v19, Cert.ReferenceIdeal.Read.val_main_v20, Cert.ReferenceIdeal.Read.val_main_c_4, Cert.ReferenceIdeal.Read.val_main_v21, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v40]
  all_goals rfl

set_option maxHeartbeats 4000000 in
/-- The squared inverse square root of every node's degree. -/
theorem stretch0_dinv2 (W : Valuation τ sig (Elt F)) (x1 : (⟨S2x1600000, .i32⟩ : BufTy).Contents (Elt F))
    (h : W (Proc.devRef .tc main_arg1) = x1) :
    StableHlo.after hostOps0 W (Proc.devRef .tc main_v26) = Cert.ReferenceIdeal.Read.val_main_v40 (F := F) x1 := by
  dsimp only [hostOps0]
  after_results
  rw [h]
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst, Cert.ReferenceIdeal.Read.val_main_v5, Cert.ReferenceIdeal.Read.val_main_cst_0, Cert.ReferenceIdeal.Read.val_main_v6, Cert.ReferenceIdeal.Read.val_main_v7, Cert.ReferenceIdeal.Read.val_main_v8, Cert.ReferenceIdeal.Read.val_main_cst_1, Cert.ReferenceIdeal.Read.val_main_v9, Cert.ReferenceIdeal.Read.val_main_v10, Cert.ReferenceIdeal.Read.val_main_v11, Cert.ReferenceIdeal.Read.val_main_c, Cert.ReferenceIdeal.Read.val_main_v12, Cert.ReferenceIdeal.Read.val_main_v13, Cert.ReferenceIdeal.Read.val_main_c_2, Cert.ReferenceIdeal.Read.val_main_v14, Cert.ReferenceIdeal.Read.val_main_v15, Cert.ReferenceIdeal.Read.val_main_v16, Cert.ReferenceIdeal.Read.val_main_v17, Cert.ReferenceIdeal.Read.val_main_v18, Cert.ReferenceIdeal.Read.val_main_c_3, Cert.ReferenceIdeal.Read.val_main_v19, Cert.ReferenceIdeal.Read.val_main_v20, Cert.ReferenceIdeal.Read.val_main_c_4, Cert.ReferenceIdeal.Read.val_main_v21, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v40]
  all_goals rfl

/-! The float arguments pass through. -/

theorem stretch0_keep_arg0 (W : Valuation τ sig (Elt F)) :
    StableHlo.after hostOps0 W (Proc.devRef .tc main_arg0) = W (Proc.devRef .tc main_arg0) := by
  not_written hostOps0

theorem stretch0_keep_arg2 (W : Valuation τ sig (Elt F)) :
    StableHlo.after hostOps0 W (Proc.devRef .tc main_arg2) = W (Proc.devRef .tc main_arg2) := by
  not_written hostOps0

theorem stretch0_keep_arg3 (W : Valuation τ sig (Elt F)) :
    StableHlo.after hostOps0 W (Proc.devRef .tc main_arg3) = W (Proc.devRef .tc main_arg3) := by
  not_written hostOps0

theorem stretch0_keep_arg4 (W : Valuation τ sig (Elt F)) :
    StableHlo.after hostOps0 W (Proc.devRef .tc main_arg4) = W (Proc.devRef .tc main_arg4) := by
  not_written hostOps0

theorem stretch0_keep_arg5 (W : Valuation τ sig (Elt F)) :
    StableHlo.after hostOps0 W (Proc.devRef .tc main_arg5) = W (Proc.devRef .tc main_arg5) := by
  not_written hostOps0

end Cert.KernelIdeal.Layers

end
-- ==== Proof.Host1.lean ====
/-
  The host operations between the first linear map and the first combine: every edge gathers its source node's row of
  the transformed features and scales it by the edge's normalisation, the scaled rows are summed into their target
  nodes, and every node's own row is scaled by its squared inverse square root degree. Given the incoming buffers as
  the reference's stages, the two results are the reference's stages; what the second layer needs later is not written.
-/
import proofs.«181619_j18056042512717_1_alg».proof.Proof.Gen.KernelIdeal.Launch
import proofs.«181619_j18056042512717_1_alg».proof.Proof.Gen.ReferenceIdeal.Read
import Idealize.ShloMosaic.Lib.StableHlo.Run
import proofs.«181619_j18056042512717_1_alg».proof.Proof.NotWritten

set_option maxRecDepth 16384

noncomputable section

namespace Cert.KernelIdeal.Layers

open Idealize.ShloMosaic Idealize.ShloMosaic.TcCoe Idealize.ShloMosaic.StableHlo
open Cert.KernelIdeal Cert.KernelIdeal.Gen

variable {F : FTy → Type} [FloatOps F]

set_option maxHeartbeats 4000000 in
/-- The messages of the first layer summed into their target nodes. -/
theorem stretch1_agg (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F))
    (h27 : W (Proc.devRef .tc main_v27) = Cert.ReferenceIdeal.Read.val_main_v4 (F := F) x0 x2)
    (h1 : W (Proc.devRef .tc main_v1) = Cert.ReferenceIdeal.Read.val_main_v1 (F := F) x1)
    (h3 : W (Proc.devRef .tc main_v3) = Cert.ReferenceIdeal.Read.val_main_v3 (F := F) x1)
    (h25 : W (Proc.devRef .tc main_v25) = Cert.ReferenceIdeal.Read.val_main_v26 (F := F) x1) :
    StableHlo.after hostOps1 W (Proc.devRef .tc main_v40) = Cert.ReferenceIdeal.Read.val_main_v39 (F := F) x0 x1 x2 := by
  dsimp only [hostOps1]
  after_results
  rw [h27, h1, h3, h25]
  simp only [Cert.ReferenceIdeal.Read.val_main_c_5, Cert.ReferenceIdeal.Read.val_main_v27, Cert.ReferenceIdeal.Read.val_main_v28, Cert.ReferenceIdeal.Read.val_main_c_6, Cert.ReferenceIdeal.Read.val_main_v29, Cert.ReferenceIdeal.Read.val_main_v30, Cert.ReferenceIdeal.Read.val_main_v31, Cert.ReferenceIdeal.Read.val_main_v32, Cert.ReferenceIdeal.Read.val_main_v33, Cert.ReferenceIdeal.Read.val_main_v34, Cert.ReferenceIdeal.Read.val_main_v35, Cert.ReferenceIdeal.Read.val_main_v36, Cert.ReferenceIdeal.Read.val_main_cst_7, Cert.ReferenceIdeal.Read.val_main_v37, Cert.ReferenceIdeal.Read.val_main_v38, Cert.ReferenceIdeal.Read.val_main_v39]
  all_goals rfl

set_option maxHeartbeats 4000000 in
/-- The self-loop message of the first layer. -/
theorem stretch1_self (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F))
    (h27 : W (Proc.devRef .tc main_v27) = Cert.ReferenceIdeal.Read.val_main_v4 (F := F) x0 x2)
    (h26 : W (Proc.devRef .tc main_v26) = Cert.ReferenceIdeal.Read.val_main_v40 (F := F) x1) :
    StableHlo.after hostOps1 W (Proc.devRef .tc main_v43) = Cert.ReferenceIdeal.Read.val_main_v43 (F := F) x0 x1 x2 := by
  dsimp only [hostOps1]
  after_results
  rw [h27, h26]
  simp only [Cert.ReferenceIdeal.Read.val_main_v41, Cert.ReferenceIdeal.Read.val_main_v42, Cert.ReferenceIdeal.Read.val_main_v43]
  all_goals rfl

/-! What later segments read passes through. -/

theorem stretch1_keep_v1 (W : Valuation τ sig (Elt F)) :
    StableHlo.after hostOps1 W (Proc.devRef .tc main_v1) = W (Proc.devRef .tc main_v1) := by
  not_written hostOps1

theorem stretch1_keep_v3 (W : Valuation τ sig (Elt F)) :
    StableHlo.after hostOps1 W (Proc.devRef .tc main_v3) = W (Proc.devRef .tc main_v3) := by
  not_written hostOps1

theorem stretch1_keep_v25 (W : Valuation τ sig (Elt F)) :
    StableHlo.after hostOps1 W (Proc.devRef .tc main_v25) = W (Proc.devRef .tc main_v25) := by
  not_written hostOps1

theorem stretch1_keep_v26 (W : Valuation τ sig (Elt F)) :
    StableHlo.after hostOps1 W (Proc.devRef .tc main_v26) = W (Proc.devRef .tc main_v26) := by
  not_written hostOps1

theorem stretch1_keep_arg3 (W : Valuation τ sig (Elt F)) :
    StableHlo.after hostOps1 W (Proc.devRef .tc main_arg3) = W (Proc.devRef .tc main_arg3) := by
  not_written hostOps1

theorem stretch1_keep_arg4 (W : Valuation τ sig (Elt F)) :
    StableHlo.after hostOps1 W (Proc.devRef .tc main_arg4) = W (Proc.devRef .tc main_arg4) := by
  not_written hostOps1

theorem stretch1_keep_arg5 (W : Valuation τ sig (Elt F)) :
    StableHlo.after hostOps1 W (Proc.devRef .tc main_arg5) = W (Proc.devRef .tc main_arg5) := by
  not_written hostOps1

end Cert.KernelIdeal.Layers

end
-- ==== Proof.Host2.lean ====
/-
  The host operations between the second linear map and the second combine: the same gather, scale, sum and self-loop
  scaling as in the first layer, on rows of width 32. The reference computes the edge normalisation and the degrees
  a second time for this layer, from the same edge list by the same operations, so its second-layer stages are the
  first-layer ones; both sides are compared as the same term of the edge list.
-/
import proofs.«181619_j18056042512717_1_alg».proof.Proof.Gen.KernelIdeal.Launch
import proofs.«181619_j18056042512717_1_alg».proof.Proof.Gen.ReferenceIdeal.Read
import Idealize.ShloMosaic.Lib.StableHlo.Run
import proofs.«181619_j18056042512717_1_alg».proof.Proof.NotWritten

set_option maxRecDepth 16384

noncomputable section

namespace Cert.KernelIdeal.Layers

open Idealize.ShloMosaic Idealize.ShloMosaic.TcCoe Idealize.ShloMosaic.StableHlo
open Cert.KernelIdeal Cert.KernelIdeal.Gen

variable {F : FTy → Type} [FloatOps F]

set_option maxHeartbeats 4000000 in
/-- The messages of the second layer summed into their target nodes. -/
theorem stretch2_agg (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F))
    (h45 : W (Proc.devRef .tc main_v45) = Cert.ReferenceIdeal.Read.val_main_v53 (F := F) x0 x1 x2 x3 x4)
    (h1 : W (Proc.devRef .tc main_v1) = Cert.ReferenceIdeal.Read.val_main_v1 (F := F) x1)
    (h3 : W (Proc.devRef .tc main_v3) = Cert.ReferenceIdeal.Read.val_main_v3 (F := F) x1)
    (h25 : W (Proc.devRef .tc main_v25) = Cert.ReferenceIdeal.Read.val_main_v26 (F := F) x1) :
    StableHlo.after hostOps3 W (Proc.devRef .tc main_v58) = Cert.ReferenceIdeal.Read.val_main_v88 (F := F) x0 x1 x2 x3 x4 := by
  dsimp only [hostOps3]
  after_results
  rw [h45, h1, h3, h25]
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst, Cert.ReferenceIdeal.Read.val_main_v5, Cert.ReferenceIdeal.Read.val_main_cst_0, Cert.ReferenceIdeal.Read.val_main_v6, Cert.ReferenceIdeal.Read.val_main_v7, Cert.ReferenceIdeal.Read.val_main_v8, Cert.ReferenceIdeal.Read.val_main_cst_1, Cert.ReferenceIdeal.Read.val_main_v9, Cert.ReferenceIdeal.Read.val_main_v10, Cert.ReferenceIdeal.Read.val_main_v11, Cert.ReferenceIdeal.Read.val_main_c, Cert.ReferenceIdeal.Read.val_main_v12, Cert.ReferenceIdeal.Read.val_main_v13, Cert.ReferenceIdeal.Read.val_main_c_2, Cert.ReferenceIdeal.Read.val_main_v14, Cert.ReferenceIdeal.Read.val_main_v15, Cert.ReferenceIdeal.Read.val_main_v16, Cert.ReferenceIdeal.Read.val_main_v17, Cert.ReferenceIdeal.Read.val_main_v18, Cert.ReferenceIdeal.Read.val_main_c_3, Cert.ReferenceIdeal.Read.val_main_v19, Cert.ReferenceIdeal.Read.val_main_v20, Cert.ReferenceIdeal.Read.val_main_c_4, Cert.ReferenceIdeal.Read.val_main_v21, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v49, Cert.ReferenceIdeal.Read.val_main_v50, Cert.ReferenceIdeal.Read.val_main_v51, Cert.ReferenceIdeal.Read.val_main_v52, Cert.ReferenceIdeal.Read.val_main_cst_8, Cert.ReferenceIdeal.Read.val_main_v54, Cert.ReferenceIdeal.Read.val_main_cst_9, Cert.ReferenceIdeal.Read.val_main_v55, Cert.ReferenceIdeal.Read.val_main_v56, Cert.ReferenceIdeal.Read.val_main_v57, Cert.ReferenceIdeal.Read.val_main_cst_10, Cert.ReferenceIdeal.Read.val_main_v58, Cert.ReferenceIdeal.Read.val_main_v59, Cert.ReferenceIdeal.Read.val_main_v60, Cert.ReferenceIdeal.Read.val_main_c_11, Cert.ReferenceIdeal.Read.val_main_v61, Cert.ReferenceIdeal.Read.val_main_v62, Cert.ReferenceIdeal.Read.val_main_c_12, Cert.ReferenceIdeal.Read.val_main_v63, Cert.ReferenceIdeal.Read.val_main_v64, Cert.ReferenceIdeal.Read.val_main_v65, Cert.ReferenceIdeal.Read.val_main_v66, Cert.ReferenceIdeal.Read.val_main_v67, Cert.ReferenceIdeal.Read.val_main_c_13, Cert.ReferenceIdeal.Read.val_main_v68, Cert.ReferenceIdeal.Read.val_main_v69, Cert.ReferenceIdeal.Read.val_main_c_14, Cert.ReferenceIdeal.Read.val_main_v70, Cert.ReferenceIdeal.Read.val_main_v71, Cert.ReferenceIdeal.Read.val_main_v72, Cert.ReferenceIdeal.Read.val_main_v73, Cert.ReferenceIdeal.Read.val_main_v74, Cert.ReferenceIdeal.Read.val_main_v75, Cert.ReferenceIdeal.Read.val_main_c_15, Cert.ReferenceIdeal.Read.val_main_v76, Cert.ReferenceIdeal.Read.val_main_v77, Cert.ReferenceIdeal.Read.val_main_c_16, Cert.ReferenceIdeal.Read.val_main_v78, Cert.ReferenceIdeal.Read.val_main_v79, Cert.ReferenceIdeal.Read.val_main_v80, Cert.ReferenceIdeal.Read.val_main_v81, Cert.ReferenceIdeal.Read.val_main_v82, Cert.ReferenceIdeal.Read.val_main_v83, Cert.ReferenceIdeal.Read.val_main_v84, Cert.ReferenceIdeal.Read.val_main_v85, Cert.ReferenceIdeal.Read.val_main_cst_17, Cert.ReferenceIdeal.Read.val_main_v86, Cert.ReferenceIdeal.Read.val_main_v87, Cert.ReferenceIdeal.Read.val_main_v88]
  all_goals rfl

set_option maxHeartbeats 4000000 in
/-- The self-loop message of the second layer. -/
theorem stretch2_self (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F))
    (h45 : W (Proc.devRef .tc main_v45) = Cert.ReferenceIdeal.Read.val_main_v53 (F := F) x0 x1 x2 x3 x4)
    (h26 : W (Proc.devRef .tc main_v26) = Cert.ReferenceIdeal.Read.val_main_v40 (F := F) x1) :
    StableHlo.after hostOps3 W (Proc.devRef .tc main_v61) = Cert.ReferenceIdeal.Read.val_main_v92 (F := F) x0 x1 x2 x3 x4 := by
  dsimp only [hostOps3]
  after_results
  rw [h45, h26]
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst, Cert.ReferenceIdeal.Read.val_main_v5, Cert.ReferenceIdeal.Read.val_main_cst_0, Cert.ReferenceIdeal.Read.val_main_v6, Cert.ReferenceIdeal.Read.val_main_v7, Cert.ReferenceIdeal.Read.val_main_v8, Cert.ReferenceIdeal.Read.val_main_cst_1, Cert.ReferenceIdeal.Read.val_main_v9, Cert.ReferenceIdeal.Read.val_main_v10, Cert.ReferenceIdeal.Read.val_main_v11, Cert.ReferenceIdeal.Read.val_main_c, Cert.ReferenceIdeal.Read.val_main_v12, Cert.ReferenceIdeal.Read.val_main_v13, Cert.ReferenceIdeal.Read.val_main_c_2, Cert.ReferenceIdeal.Read.val_main_v14, Cert.ReferenceIdeal.Read.val_main_v15, Cert.ReferenceIdeal.Read.val_main_v16, Cert.ReferenceIdeal.Read.val_main_v17, Cert.ReferenceIdeal.Read.val_main_v18, Cert.ReferenceIdeal.Read.val_main_c_3, Cert.ReferenceIdeal.Read.val_main_v19, Cert.ReferenceIdeal.Read.val_main_v20, Cert.ReferenceIdeal.Read.val_main_c_4, Cert.ReferenceIdeal.Read.val_main_v21, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v40, Cert.ReferenceIdeal.Read.val_main_v49, Cert.ReferenceIdeal.Read.val_main_v50, Cert.ReferenceIdeal.Read.val_main_v51, Cert.ReferenceIdeal.Read.val_main_v52, Cert.ReferenceIdeal.Read.val_main_cst_8, Cert.ReferenceIdeal.Read.val_main_v54, Cert.ReferenceIdeal.Read.val_main_cst_9, Cert.ReferenceIdeal.Read.val_main_v55, Cert.ReferenceIdeal.Read.val_main_v56, Cert.ReferenceIdeal.Read.val_main_v57, Cert.ReferenceIdeal.Read.val_main_cst_10, Cert.ReferenceIdeal.Read.val_main_v58, Cert.ReferenceIdeal.Read.val_main_v59, Cert.ReferenceIdeal.Read.val_main_v60, Cert.ReferenceIdeal.Read.val_main_c_11, Cert.ReferenceIdeal.Read.val_main_v61, Cert.ReferenceIdeal.Read.val_main_v62, Cert.ReferenceIdeal.Read.val_main_c_12, Cert.ReferenceIdeal.Read.val_main_v63, Cert.ReferenceIdeal.Read.val_main_v64, Cert.ReferenceIdeal.Read.val_main_v65, Cert.ReferenceIdeal.Read.val_main_v66, Cert.ReferenceIdeal.Read.val_main_v67, Cert.ReferenceIdeal.Read.val_main_c_13, Cert.ReferenceIdeal.Read.val_main_v68, Cert.ReferenceIdeal.Read.val_main_v69, Cert.ReferenceIdeal.Read.val_main_c_14, Cert.ReferenceIdeal.Read.val_main_v70, Cert.ReferenceIdeal.Read.val_main_v71, Cert.ReferenceIdeal.Read.val_main_v72, Cert.ReferenceIdeal.Read.val_main_v73, Cert.ReferenceIdeal.Read.val_main_v74, Cert.ReferenceIdeal.Read.val_main_v75, Cert.ReferenceIdeal.Read.val_main_v89, Cert.ReferenceIdeal.Read.val_main_v90, Cert.ReferenceIdeal.Read.val_main_v91, Cert.ReferenceIdeal.Read.val_main_v92]
  all_goals rfl

/-! The second bias passes through. -/

theorem stretch2_keep_arg5 (W : Valuation τ sig (Elt F)) :
    StableHlo.after hostOps3 W (Proc.devRef .tc main_arg5) = W (Proc.devRef .tc main_arg5) := by
  not_written hostOps3

end Cert.KernelIdeal.Layers

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.Axes.lean ====
/-
  Two trivial facts about offsets: the all-zero offset of a rank-1 and of a rank-2 rectangle, in the form the
  whole-block load and store lemmas ask for.
-/
import Mathlib.Data.Fin.VecNotation

namespace Cert.KernelIdeal.Layers

theorem zero2 : (![0, 0] : Fin 2 → Nat) = fun _ => 0 := funext fun a => by
  match a with
  | ⟨0, _⟩ => rfl
  | ⟨1, _⟩ => rfl
theorem zero1 : (![0] : Fin 1 → Nat) = fun _ => 0 := funext fun a => by
  match a with
  | ⟨0, _⟩ => rfl

end Cert.KernelIdeal.Layers
-- ==== Proof.Linear64.lean ====
/-
  The first layer's linear map as one whole array. The body multiplies a block of 10000 rows of the features by the
  whole weight matrix into a zero accumulator; read over the extended reals, where a change of float format is the
  identity, the entry at (r, j) of a block is the sum over k of x (r, k) * W (k, j). The ten row blocks tile the
  100000 rows, so after the region the output array holds that sum at every (r, j).
-/
import proofs.«181619_j18056042512717_1_alg».proof.Proof.Gen.KernelIdeal.Frame
import Idealize.ShloMosaic.Lib.Pipeline.Value
import Idealize.ShloMosaic.Lib.ValueIdx
import Idealize.ShloMosaic.PureOps.Ideal.Laws
import proofs.«181619_j18056042512717_1_alg».proof.Proof.LibMat
import proofs.«181619_j18056042512717_1_alg».proof.Proof.Axes

set_option maxRecDepth 16384

noncomputable section

namespace Cert.KernelIdeal.Layers

open Idealize.ShloMosaic Idealize.ShloMosaic.TcCoe Idealize.ShloMosaic.ValueIdx Idealize.ShloMosaic.Pipeline
open Cert.KernelIdeal Cert.KernelIdeal.Gen

open scoped BigOperators

/-- The feature entry at the row of an output index and contracted coordinate k. -/
abbrev rowAt128 (i : S100000x64.Idx) (k : Fin 128) : S100000x128.Idx := fun a => match a with
  | ⟨0, _⟩ => ⟨(i 0).val, (i 0).isLt⟩
  | ⟨1, _⟩ => ⟨k.val, k.isLt⟩
/-- The weight entry at contracted coordinate k and the column of an output index. -/
abbrev colAt64 (i : S100000x64.Idx) (k : Fin 128) : S128x64.Idx := fun a => match a with
  | ⟨0, _⟩ => ⟨k.val, k.isLt⟩
  | ⟨1, _⟩ => ⟨(i 1).val, (i 1).isLt⟩

/-- The first layer's linear map, index by index. -/
def linear64 (x : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ k : Fin 128, x (rowAt128 i k) * w (colAt64 i k)

/-- The body's arithmetic at row p, column q of a block: the matrix product into the zero accumulator, the two
    changes of float format being the identity over the extended reals. -/
theorem pay0_apply (v0 : Vec Ideal S10000x128 .f32) (v2 : Vec Ideal S128x64 .f32) (p : Fin 10000) (q : Fin 64) :
    k0_pay1 (F := Ideal) v0 v2 (ix2 p q) = ∑ k : Fin 128, v0 (ix2 p k) * v2 (ix2 k q) := by
  unfold k0_pay1
  refine (LibMat.matmul_plain_apply Facts₀.dot_S10000x128_S128x64_S10000x64_1_0_0_1_n_n_wf none _ _ p q).trans ?_
  rfl

/-- A sum over the contracted coordinate whose two families of indices are the row of i and the column of i is the
    linear map at i. -/
theorem linear64_of_reads (x : (⟨S100000x128, .f32⟩ : BufTy).Contents (Elt Ideal)) (w : (⟨S128x64, .f32⟩ : BufTy).Contents (Elt Ideal))
    (i : S100000x64.Idx) (r : Fin 128 → S100000x128.Idx) (s : Fin 128 → S128x64.Idx)
    (hr : ∀ k, r k = rowAt128 i k) (hs : ∀ k, s k = colAt64 i k) :
    ∑ k : Fin 128, x (r k) * w (s k) = linear64 x w i := by
  unfold linear64
  exact Finset.sum_congr rfl fun k _ => by rw [hr k, hs k]

/-- The printed index maps over the ten grid points: the feature rows and the output move with the point, the weights stay. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of the linear map of the arrays as the region found them. -/
theorem flushed0 (c : Dev nD) (t : Fin cfg0.N) :
    (dat0 V c).flushed 2 t = ((cfg0.win 2).blk t).view.read (Elt Ideal) (linear64 (V c main_arg0) (V c main_arg2)) := by
  show (cfg0.win 2).cut (grid0.coords t) ((dat0 V c).after 2 t) = _
  rw [after0_2]
  unfold out0_2
  rw [View.canon_unit_zero zero2]
  simp only [View.ld_unit_zero (S := S10000x128) zero2, View.ld_unit_zero (S := S128x64) zero2]
  obtain ⟨e0, e1, e2, e3, e4, e5⟩ := maps0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = linear64 (V c main_arg0) (V c main_arg2) (((cfg0.win 2).blk t).view.emb (ix2 p q))
  refine (pay0_apply _ _ p q).trans ?_
  refine linear64_of_reads (V c main_arg0) (V c main_arg2) (((cfg0.win 2).blk t).view.emb (ix2 p q))
    (fun k => ((cfg0.win 0).blk t).view.emb (ix2 p k)) (fun k => ((cfg0.win 1).blk t).view.emb (ix2 k q)) (fun k => ?_) (fun k => ?_)
  · funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v27).slice (win0_2.rect t)).set ↔ _
  rw [View.set_slice_whole, Rect.mem_set_unit]
  exact Iff.rfl

/-- The ten row blocks tile the array: row r lies in the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 10000 < cfg0.N := by show _ < 10; omega
  obtain ⟨e0, e1, e2, e3, e4, e5⟩ := maps0 ⟨(i 0).val / 10000, hlt⟩
  refine ⟨⟨(i 0).val / 10000, hlt⟩, flush0_2 _, ?_⟩
  rw [mem_blk0]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 64 ≤ (i 1).val
      ∧ (i 1).val < win0_2.index ⟨(i 0).val / 10000, hlt⟩ (1 : Fin 2) * 64 + 64
    omega

/-- After the region the output array is the linear map of the arrays as the region found them. -/
theorem final0 (c : Dev nD) :
    (dat0 V c).arrAt 2 cfg0.N = linear64 (V c main_arg0) (V c main_arg2) :=
  (dat0 V c).arrAt_eq_of_cover 2 _ (fun t _ => flushed0 V c t) cover0

end Cert.KernelIdeal.Layers

end
-- ==== Proof.CombineRelu.lean ====
/-
  The combine step of the first layer as one whole array. The body adds the aggregated messages, the self message
  and the bias row, and takes the maximum with zero; each grid point handles one block of 10000 rows, and the ten
  blocks tile the 100000 rows. So after the region the output array holds, at (r, j),
  max ((agg (r, j) + self (r, j)) + bias j) 0 of the arrays as the region found them.
-/
import proofs.«181619_j18056042512717_1_alg».proof.Proof.Gen.KernelIdeal.Frame
import Idealize.ShloMosaic.Lib.Pipeline.Value
import Idealize.ShloMosaic.Lib.ValueIdx
import Idealize.ShloMosaic.Lib.ValueLayout
import proofs.«181619_j18056042512717_1_alg».proof.Proof.Axes

set_option maxRecDepth 16384

noncomputable section

namespace Cert.KernelIdeal.Layers

open Idealize.ShloMosaic Idealize.ShloMosaic.TcCoe Idealize.ShloMosaic.ValueIdx Idealize.ShloMosaic.Pipeline
open Cert.KernelIdeal Cert.KernelIdeal.Gen

variable {F : FTy → Type} [FloatOps F]

/-- The bias entry an index of a [rows, 64] array reads: its column. -/
abbrev col64 (i : S100000x64.Idx) : S64.Idx := fun a => match a with
  | ⟨0, _⟩ => ⟨(i 1).val, (i 1).isLt⟩

/-- The first layer's combine, index by index. -/
def combineRelu64 (a s : S100000x64.Idx → Elt F .f32) (b : S64.Idx → Elt F .f32) : S100000x64.Idx → Elt F .f32 :=
  fun i => FloatOps.maximumf (FloatOps.addf (FloatOps.addf (a i) (s i)) (b (col64 i))) (FloatOps.ofBits .f32 0x00000000#32)

/-- The body's arithmetic at row p, column q of a block. -/
theorem pay1_apply (v0 : Vec F S64 .f32) (v3 v5 : Vec F S10000x64 .f32) (p : Fin 10000) (q : Fin 64) :
    k1_pay1 v0 v3 v5 (ix2 p q)
      = FloatOps.maximumf (FloatOps.addf (FloatOps.addf (v3 (ix2 p q)) (v5 (ix2 p q))) (v0 (ix1 q))) (FloatOps.ofBits .f32 0x00000000#32) := by
  unfold k1_pay1
  rw [shapeCast_self, shapeCast_self]
  show FloatOps.maximumf (FloatOps.addf (FloatOps.addf (v3 (ix2 p q)) (v5 (ix2 p q)))
      (broadcastTo S10000x64 (shapeCast S1x64 v0 shapeCasts_S64_S1x64) broadcasts_S1x64_S10000x64 (ix2 p q)))
      (FloatOps.ofBits .f32 0x00000000#32) = _
  rw [broadcastTo_apply _ broadcasts_S1x64_S10000x64 (ix2 p q) (ix2 (0 : Fin 1) q) (fun a => by
        match a with
        | ⟨0, _⟩ => rfl
        | ⟨1, _⟩ => rfl),
    shapeCast_addUnit_apply]
  refine congrArg (fun z => FloatOps.maximumf (FloatOps.addf (FloatOps.addf (v3 (ix2 p q)) (v5 (ix2 p q))) (v0 z))
    (FloatOps.ofBits .f32 0x00000000#32)) (funext fun a => ?_)
  match a with
  | ⟨0, _⟩ => rfl

/-- The printed index maps over the ten grid points: the two row-blocked inputs and the output move with the point, the
    bias stays. -/
theorem maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

variable (V : (c : Dev nD) → (b : Ref sig .tc) → Buf (Elt F) ((c : Thread nD τ).loc b))

/-- What grid point t writes back is block t of the layer's combine of the arrays as the region found them. -/
theorem flushed1 (c : Dev nD) (t : Fin cfg1.N) :
    (dat1 V c).flushed 3 t
      = ((cfg1.win 3).blk t).view.read (Elt F) (combineRelu64 (V c main_v40) (V c main_v43) (V c main_arg3)) := by
  show (cfg1.win 3).cut (grid1.coords t) ((dat1 V c).after 3 t) = _
  rw [after1_3]
  unfold out1_3
  rw [View.canon_unit_zero zero2]
  simp only [View.ld_unit_zero (S := S10000x64) zero2, View.ld_unit_zero (S := S64) zero1]
  obtain ⟨e0, e1, e2, e3, e4, e5, e6⟩ := maps1 t
  funext j
  obtain ⟨p, q, rfl⟩ : ∃ (p : Fin 10000) (q : Fin 64), j = ix2 p q := ⟨j 0, j 1, eq_ix2 j⟩
  show k1_pay1 (iblk1 V c 2 t) (iblk1 V c 0 t) (iblk1 V c 1 t) (ix2 p q)
    = combineRelu64 (V c main_v40) (V c main_v43) (V c main_arg3) (((cfg1.win 3).blk t).view.emb (ix2 p q))
  refine (pay1_apply _ _ _ p q).trans ?_
  show FloatOps.maximumf (FloatOps.addf (FloatOps.addf (V c main_v40 (((cfg1.win 0).blk t).view.emb (ix2 p q)))
        (V c main_v43 (((cfg1.win 1).blk t).view.emb (ix2 p q)))) (V c main_arg3 (((cfg1.win 2).blk t).view.emb (ix1 q))))
      (FloatOps.ofBits .f32 0x00000000#32)
    = FloatOps.maximumf (FloatOps.addf (FloatOps.addf (V c main_v40 (((cfg1.win 3).blk t).view.emb (ix2 p q)))
        (V c main_v43 (((cfg1.win 3).blk t).view.emb (ix2 p q)))) (V c main_arg3 (col64 (((cfg1.win 3).blk t).view.emb (ix2 p q)))))
      (FloatOps.ofBits .f32 0x00000000#32)
  have h0 : ((cfg1.win 0).blk t).view.emb (ix2 p q) = ((cfg1.win 3).blk t).view.emb (ix2 p q) := by
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * q.val = win1_3.index t (1 : Fin 2) * 64 + 1 * q.val; omega
  have h1 : ((cfg1.win 1).blk t).view.emb (ix2 p q) = ((cfg1.win 3).blk t).view.emb (ix2 p q) := by
    funext a; apply Fin.ext
    match a with
    | ⟨0, _⟩ => show win1_1.index t (0 : Fin 2) * 10000 + 1 * p.val = win1_3.index t (0 : Fin 2) * 10000 + 1 * p.val; omega
    | ⟨1, _⟩ => show win1_1.index t (1 : Fin 2) * 64 + 1 * q.val = win1_3.index t (1 : Fin 2) * 64 + 1 * q.val; omega
  have h2 : ((cfg1.win 2).blk t).view.emb (ix1 q) = col64 (((cfg1.win 3).blk t).view.emb (ix2 p q)) := by
    funext a; apply Fin.ext
    match a with
    | ⟨0, _⟩ => show win1_2.index t (0 : Fin 1) * 64 + 1 * q.val = win1_3.index t (1 : Fin 2) * 64 + 1 * q.val; omega
  rw [h0, h1, h2]

/-- An index of the output array is in point t's block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v44).slice (win1_3.rect t)).set ↔ _
  rw [View.set_slice_whole, Rect.mem_set_unit]
  exact Iff.rfl

/-- The ten row blocks tile the array: row r lies in the block of point r / 10000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hlt : (i 0).val / 10000 < cfg1.N := by show _ < 10; omega
  obtain ⟨e0, e1, e2, e3, e4, e5, e6⟩ := maps1 ⟨(i 0).val / 10000, hlt⟩
  refine ⟨⟨(i 0).val / 10000, hlt⟩, flush1_3 _, ?_⟩
  rw [mem_blk1]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [e5]; show (i 0).val / 10000 * 10000 ≤ (i 0).val ∧ (i 0).val < (i 0).val / 10000 * 10000 + 10000; omega
  | ⟨1, _⟩ =>
    show win1_3.index ⟨(i 0).val / 10000, hlt⟩ (1 : Fin 2) * 64 ≤ (i 1).val
      ∧ (i 1).val < win1_3.index ⟨(i 0).val / 10000, hlt⟩ (1 : Fin 2) * 64 + 64
    omega

/-- After the region the output array is the layer's combine of the arrays as the region found them. -/
theorem final1 (c : Dev nD) :
    (dat1 V c).arrAt 3 cfg1.N = combineRelu64 (V c main_v40) (V c main_v43) (V c main_arg3) :=
  (dat1 V c).arrAt_eq_of_cover 3 _ (fun t _ => flushed1 V c t) cover1

end Cert.KernelIdeal.Layers

end
-- ==== Proof.Linear32.lean ====
/-
  The second layer's linear map as one whole array. The body multiplies a block of 10000 rows of the hidden features
  by the whole weight matrix into a zero accumulator; read over the extended reals, where a change of float format is the
  identity, the entry at (r, j) of a block is the sum over k of x (r, k) * W (k, j). The ten row blocks tile the
  100000 rows, so after the region the output array holds that sum at every (r, j).
-/
import proofs.«181619_j18056042512717_1_alg».proof.Proof.Gen.KernelIdeal.Frame
import Idealize.ShloMosaic.Lib.Pipeline.Value
import Idealize.ShloMosaic.Lib.ValueIdx
import Idealize.ShloMosaic.PureOps.Ideal.Laws
import proofs.«181619_j18056042512717_1_alg».proof.Proof.LibMat
import proofs.«181619_j18056042512717_1_alg».proof.Proof.Axes

set_option maxRecDepth 16384

noncomputable section

namespace Cert.KernelIdeal.Layers

open Idealize.ShloMosaic Idealize.ShloMosaic.TcCoe Idealize.ShloMosaic.ValueIdx Idealize.ShloMosaic.Pipeline
open Cert.KernelIdeal Cert.KernelIdeal.Gen

open scoped BigOperators

/-- The feature entry at the row of an output index and contracted coordinate k. -/
abbrev rowAt64 (i : S100000x32.Idx) (k : Fin 64) : S100000x64.Idx := fun a => match a with
  | ⟨0, _⟩ => ⟨(i 0).val, (i 0).isLt⟩
  | ⟨1, _⟩ => ⟨k.val, k.isLt⟩
/-- The weight entry at contracted coordinate k and the column of an output index. -/
abbrev colAt32 (i : S100000x32.Idx) (k : Fin 64) : S64x32.Idx := fun a => match a with
  | ⟨0, _⟩ => ⟨k.val, k.isLt⟩
  | ⟨1, _⟩ => ⟨(i 1).val, (i 1).isLt⟩

/-- The second layer's linear map, index by index. -/
def linear32 (x : (⟨S100000x64, .f32⟩ : BufTy).Contents (Elt Ideal)) (w : (⟨S64x32, .f32⟩ : BufTy).Contents (Elt Ideal)) :
    (⟨S100000x32, .f32⟩ : BufTy).Contents (Elt Ideal) :=
  fun i => ∑ k : Fin 64, x (rowAt64 i k) * w (colAt32 i k)

/-- The body's arithmetic at row p, column q of a block: the matrix product into the zero accumulator, the two
    changes of float format being the identity over the extended reals. -/
theorem pay2_apply (v0 : Vec Ideal S10000x64 .f32) (v2 : Vec Ideal S64x32 .f32) (p : Fin 10000) (q : Fin 32) :
    k2_pay1 (F := Ideal) v0 v2 (ix2 p q) = ∑ k : Fin 64, v0 (ix2 p k) * v2 (ix2 k q) := by
  unfold k2_pay1
  rw [shapeCast_self]
  refine (LibMat.matmul_plain_apply Facts₀.dot_S10000x64_S64x32_S10000x32_1_0_0_1_n_n_wf none _ _ p q).trans ?_
  rfl

/-- A sum over the contracted coordinate whose two families of indices are the row of i and the column of i is the
    linear map at i. -/
theorem linear32_of_reads (x : (⟨S100000x64, .f32⟩ : BufTy).Contents (Elt Ideal)) (w : (⟨S64x32, .f32⟩ : BufTy).Contents (Elt Ideal))
    (i : S100000x32.Idx) (r : Fin 64 → S100000x64.Idx) (s : Fin 64 → S64x32.Idx)
    (hr : ∀ k, r k = rowAt64 i k) (hs : ∀ k, s k = colAt32 i k) :
    ∑ k : Fin 64, x (r k) * w (s k) = linear32 x w i := by
  unfold linear32
  exact Finset.sum_congr rfl fun k _ => by rw [hr k, hs k]

/-- The printed index maps over the ten grid points: the feature rows and the output move with the point, the weights stay. -/
theorem maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the linear map of the arrays as the region found them. -/
theorem flushed2 (c : Dev nD) (t : Fin cfg2.N) :
    (dat2 V c).flushed 2 t = ((cfg2.win 2).blk t).view.read (Elt Ideal) (linear32 (V c main_v44) (V c main_arg4)) := by
  show (cfg2.win 2).cut (grid2.coords t) ((dat2 V c).after 2 t) = _
  rw [after2_2]
  unfold out2_2
  rw [View.canon_unit_zero zero2]
  simp only [View.ld_unit_zero (S := S10000x64) zero2, View.ld_unit_zero (S := S64x32) zero2]
  obtain ⟨e0, e1, e2, e3, e4, e5⟩ := maps2 t
  funext j
  obtain ⟨p, q, rfl⟩ : ∃ (p : Fin 10000) (q : Fin 32), j = ix2 p q := ⟨j 0, j 1, eq_ix2 j⟩
  show k2_pay1 (iblk2 V c 0 t) (iblk2 V c 1 t) (ix2 p q)
    = linear32 (V c main_v44) (V c main_arg4) (((cfg2.win 2).blk t).view.emb (ix2 p q))
  refine (pay2_apply _ _ p q).trans ?_
  refine linear32_of_reads (V c main_v44) (V c main_arg4) (((cfg2.win 2).blk t).view.emb (ix2 p q))
    (fun k => ((cfg2.win 0).blk t).view.emb (ix2 p k)) (fun k => ((cfg2.win 1).blk t).view.emb (ix2 k q)) (fun k => ?_) (fun k => ?_)
  · funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  · funext a; apply Fin.ext
    match a with
    | ⟨0, _⟩ => show win2_1.index t (0 : Fin 2) * 64 + 1 * k.val = k.val; omega
    | ⟨1, _⟩ => show win2_1.index t (1 : Fin 2) * 32 + 1 * q.val = win2_2.index t (1 : Fin 2) * 32 + 1 * q.val; omega

/-- An index of the output array is in point t's block iff each coordinate is in the block's range on its axis. -/
theorem mem_blk2 (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v45).slice (win2_2.rect t)).set ↔ _
  rw [View.set_slice_whole, Rect.mem_set_unit]
  exact Iff.rfl

/-- The ten row blocks tile the array: row r lies in the block of point r / 10000. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hlt : (i 0).val / 10000 < cfg2.N := by show _ < 10; omega
  obtain ⟨e0, e1, e2, e3, e4, e5⟩ := maps2 ⟨(i 0).val / 10000, hlt⟩
  refine ⟨⟨(i 0).val / 10000, hlt⟩, flush2_2 _, ?_⟩
  rw [mem_blk2]
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hlt⟩ (1 : Fin 2) * 32 ≤ (i 1).val
      ∧ (i 1).val < win2_2.index ⟨(i 0).val / 10000, hlt⟩ (1 : Fin 2) * 32 + 32
    omega

/-- After the region the output array is the linear map of the arrays as the region found them. -/
theorem final2 (c : Dev nD) :
    (dat2 V c).arrAt 2 cfg2.N = linear32 (V c main_v44) (V c main_arg4) :=
  (dat2 V c).arrAt_eq_of_cover 2 _ (fun t _ => flushed2 V c t) cover2

end Cert.KernelIdeal.Layers

end
-- ==== Proof.CombineBias.lean ====
/-
  The combine step of the second layer as one whole array. The body adds the aggregated messages, the self message
  and the bias row, with no maximum; each grid point handles one block of 10000 rows, and the ten blocks tile the
  100000 rows. So after the region the output array holds, at (r, j), (agg (r, j) + self (r, j)) + bias j of the
  arrays as the region found them.
-/
import proofs.«181619_j18056042512717_1_alg».proof.Proof.Gen.KernelIdeal.Frame
import Idealize.ShloMosaic.Lib.Pipeline.Value
import Idealize.ShloMosaic.Lib.ValueIdx
import Idealize.ShloMosaic.Lib.ValueLayout
import proofs.«181619_j18056042512717_1_alg».proof.Proof.Axes

set_option maxRecDepth 16384

noncomputable section

namespace Cert.KernelIdeal.Layers

open Idealize.ShloMosaic Idealize.ShloMosaic.TcCoe Idealize.ShloMosaic.ValueIdx Idealize.ShloMosaic.Pipeline
open Cert.KernelIdeal Cert.KernelIdeal.Gen

variable {F : FTy → Type} [FloatOps F]

/-- The bias entry an index of a [rows, 32] array reads: its column. -/
abbrev col32 (i : S100000x32.Idx) : S32.Idx := fun a => match a with
  | ⟨0, _⟩ => ⟨(i 1).val, (i 1).isLt⟩

/-- The second layer's combine, index by index. -/
def combineBias32 (a s : S100000x32.Idx → Elt F .f32) (b : S32.Idx → Elt F .f32) : S100000x32.Idx → Elt F .f32 :=
  fun i => FloatOps.addf (FloatOps.addf (a i) (s i)) (b (col32 i))

/-- The body's arithmetic at row p, column q of a block. -/
theorem pay3_apply (v0 : Vec F S32 .f32) (v3 v5 : Vec F S10000x32 .f32) (p : Fin 10000) (q : Fin 32) :
    k3_pay1 v0 v3 v5 (ix2 p q)
      = FloatOps.addf (FloatOps.addf (v3 (ix2 p q)) (v5 (ix2 p q))) (v0 (ix1 q)) := by
  unfold k3_pay1
  rw [shapeCast_self, shapeCast_self]
  show FloatOps.addf (FloatOps.addf (v3 (ix2 p q)) (v5 (ix2 p q)))
      (broadcastTo S10000x32 (shapeCast S1x32 v0 shapeCasts_S32_S1x32) broadcasts_S1x32_S10000x32 (ix2 p q)) = _
  rw [broadcastTo_apply _ broadcasts_S1x32_S10000x32 (ix2 p q) (ix2 (0 : Fin 1) q) (fun a => by
        match a with
        | ⟨0, _⟩ => rfl
        | ⟨1, _⟩ => rfl),
    shapeCast_addUnit_apply]
  refine congrArg (fun z => FloatOps.addf (FloatOps.addf (v3 (ix2 p q)) (v5 (ix2 p q))) (v0 z)) (funext fun a => ?_)
  match a with
  | ⟨0, _⟩ => rfl

/-- The printed index maps over the ten grid points: the two row-blocked inputs and the output move with the point, the
    bias stays. -/
theorem maps3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

variable (V : (c : Dev nD) → (b : Ref sig .tc) → Buf (Elt F) ((c : Thread nD τ).loc b))

/-- What grid point t writes back is block t of the layer's combine of the arrays as the region found them. -/
theorem flushed3 (c : Dev nD) (t : Fin cfg3.N) :
    (dat3 V c).flushed 3 t
      = ((cfg3.win 3).blk t).view.read (Elt F) (combineBias32 (V c main_v58) (V c main_v61) (V c main_arg5)) := by
  show (cfg3.win 3).cut (grid3.coords t) ((dat3 V c).after 3 t) = _
  rw [after3_3]
  unfold out3_3
  rw [View.canon_unit_zero zero2]
  simp only [View.ld_unit_zero (S := S10000x32) zero2, View.ld_unit_zero (S := S32) zero1]
  obtain ⟨e0, e1, e2, e3, e4, e5, e6⟩ := maps3 t
  funext j
  obtain ⟨p, q, rfl⟩ : ∃ (p : Fin 10000) (q : Fin 32), j = ix2 p q := ⟨j 0, j 1, eq_ix2 j⟩
  show k3_pay1 (iblk3 V c 2 t) (iblk3 V c 0 t) (iblk3 V c 1 t) (ix2 p q)
    = combineBias32 (V c main_v58) (V c main_v61) (V c main_arg5) (((cfg3.win 3).blk t).view.emb (ix2 p q))
  refine (pay3_apply _ _ _ p q).trans ?_
  show FloatOps.addf (FloatOps.addf (V c main_v58 (((cfg3.win 0).blk t).view.emb (ix2 p q)))
        (V c main_v61 (((cfg3.win 1).blk t).view.emb (ix2 p q)))) (V c main_arg5 (((cfg3.win 2).blk t).view.emb (ix1 q)))
    = FloatOps.addf (FloatOps.addf (V c main_v58 (((cfg3.win 3).blk t).view.emb (ix2 p q)))
        (V c main_v61 (((cfg3.win 3).blk t).view.emb (ix2 p q)))) (V c main_arg5 (col32 (((cfg3.win 3).blk t).view.emb (ix2 p q))))
  have h0 : ((cfg3.win 0).blk t).view.emb (ix2 p q) = ((cfg3.win 3).blk t).view.emb (ix2 p q) := by
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 32 + 1 * q.val = win3_3.index t (1 : Fin 2) * 32 + 1 * q.val; omega
  have h1 : ((cfg3.win 1).blk t).view.emb (ix2 p q) = ((cfg3.win 3).blk t).view.emb (ix2 p q) := by
    funext a; apply Fin.ext
    match a with
    | ⟨0, _⟩ => show win3_1.index t (0 : Fin 2) * 10000 + 1 * p.val = win3_3.index t (0 : Fin 2) * 10000 + 1 * p.val; omega
    | ⟨1, _⟩ => show win3_1.index t (1 : Fin 2) * 32 + 1 * q.val = win3_3.index t (1 : Fin 2) * 32 + 1 * q.val; omega
  have h2 : ((cfg3.win 2).blk t).view.emb (ix1 q) = col32 (((cfg3.win 3).blk t).view.emb (ix2 p q)) := by
    funext a; apply Fin.ext
    match a with
    | ⟨0, _⟩ => show win3_2.index t (0 : Fin 1) * 32 + 1 * q.val = win3_3.index t (1 : Fin 2) * 32 + 1 * q.val; omega
  rw [h0, h1, h2]

/-- An index of the output array is in point t's block iff each coordinate is in the block's range on its axis. -/
theorem mem_blk3 (t : Fin cfg3.N) (i : S100000x32.Idx) :
    i ∈ ((cfg3.win 3).blk t).view.set ↔ ∀ a : Fin 2, win3_3.index t a * S10000x32.size a ≤ (i a).val
      ∧ (i a).val < win3_3.index t a * S10000x32.size a + S10000x32.size a := by
  show i ∈ ((View.whole main_v62).slice (win3_3.rect t)).set ↔ _
  rw [View.set_slice_whole, Rect.mem_set_unit]
  exact Iff.rfl

/-- The ten row blocks tile the array: row r lies in the block of point r / 10000. -/
theorem cover3 (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  have hlt : (i 0).val / 10000 < cfg3.N := by show _ < 10; omega
  obtain ⟨e0, e1, e2, e3, e4, e5, e6⟩ := maps3 ⟨(i 0).val / 10000, hlt⟩
  refine ⟨⟨(i 0).val / 10000, hlt⟩, flush3_3 _, ?_⟩
  rw [mem_blk3]
  intro a
  match a with
  | ⟨0, _⟩ =>
    show win3_3.index ⟨(i 0).val / 10000, hlt⟩ (0 : Fin 2) * 10000 ≤ (i 0).val
      ∧ (i 0).val < win3_3.index ⟨(i 0).val / 10000, hlt⟩ (0 : Fin 2) * 10000 + 10000
    rw [e5]; show (i 0).val / 10000 * 10000 ≤ (i 0).val ∧ (i 0).val < (i 0).val / 10000 * 10000 + 10000; omega
  | ⟨1, _⟩ =>
    show win3_3.index ⟨(i 0).val / 10000, hlt⟩ (1 : Fin 2) * 32 ≤ (i 1).val
      ∧ (i 1).val < win3_3.index ⟨(i 0).val / 10000, hlt⟩ (1 : Fin 2) * 32 + 32
    omega

/-- After the region the output array is the layer's combine of the arrays as the region found them. -/
theorem final3 (c : Dev nD) :
    (dat3 V c).arrAt 3 cfg3.N = combineBias32 (V c main_v58) (V c main_v61) (V c main_arg5) :=
  (dat3 V c).arrAt_eq_of_cover 3 _ (fun t _ => flushed3 V c t) cover3

end Cert.KernelIdeal.Layers

end
-- ==== Proof.Stages.lean ====
/-
  The kernel's four whole-array functions are the reference's stages. The reference's matrix products are, over the
  extended reals, the same row-by-column sums; its two combines are the same additions in the same order (aggregate plus
  self message, then the bias broadcast along the rows), and its relu is the maximum with zero.
-/
import proofs.«181619_j18056042512717_1_alg».proof.Proof.Linear64
import proofs.«181619_j18056042512717_1_alg».proof.Proof.CombineRelu
import proofs.«181619_j18056042512717_1_alg».proof.Proof.Linear32
import proofs.«181619_j18056042512717_1_alg».proof.Proof.CombineBias
import proofs.«181619_j18056042512717_1_alg».proof.Proof.Gen.ReferenceIdeal.Read

set_option maxRecDepth 16384

noncomputable section

namespace Cert.KernelIdeal.Layers

open Idealize.ShloMosaic Idealize.ShloMosaic.TcCoe
open Cert.KernelIdeal
open scoped BigOperators

/-- The first linear map is the reference's first matrix product. -/
theorem linear64_eq (x0 : (⟨S100000x128, .f32⟩ : BufTy).Contents (Elt Ideal)) (x2 : (⟨S128x64, .f32⟩ : BufTy).Contents (Elt Ideal)) :
    linear64 x0 x2 = Cert.ReferenceIdeal.Read.val_main_v4 (F := Ideal) x0 x2 := by
  funext i
  rw [Cert.ReferenceIdeal.Read.val_main_v4_apply]
  rfl

/-- The first combine of the reference's aggregate and self message is the reference's hidden layer. -/
theorem combineRelu64_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) :
    combineRelu64 (F := Ideal) (Cert.ReferenceIdeal.Read.val_main_v39 (F := Ideal) x0 x1 x2) (Cert.ReferenceIdeal.Read.val_main_v43 (F := Ideal) x0 x1 x2) x3
      = Cert.ReferenceIdeal.Read.val_main_v48 (F := Ideal) x0 x1 x2 x3 := by
  funext i
  rw [Cert.ReferenceIdeal.Read.val_main_v48_apply, Cert.ReferenceIdeal.Read.val_main_v47_apply, Cert.ReferenceIdeal.Read.val_main_v44_apply, Cert.ReferenceIdeal.Read.val_main_v46_apply,
    Cert.ReferenceIdeal.Read.val_main_v45_apply, Cert.ReferenceIdeal.Read.val_main_call0_v0_apply, Cert.ReferenceIdeal.Read.val_main_call0_cst_apply]
  have e : col64 i = Cert.ReferenceIdeal.Read.idx_main_v45 (Cert.ReferenceIdeal.Read.idx_main_v46 i) := funext fun a => by
    match a with
    | ⟨0, _⟩ => rfl
  unfold combineRelu64
  rw [e]

/-- The second linear map of the reference's hidden layer is the reference's second matrix product. -/
theorem linear32_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) :
    linear32 (Cert.ReferenceIdeal.Read.val_main_v48 (F := Ideal) x0 x1 x2 x3) x4 = Cert.ReferenceIdeal.Read.val_main_v53 (F := Ideal) x0 x1 x2 x3 x4 := by
  funext i
  rw [Cert.ReferenceIdeal.Read.val_main_v53_apply]
  rfl

/-- The second combine of the reference's aggregate and self message is the reference's result. -/
theorem combineBias32_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) :
    combineBias32 (F := Ideal) (Cert.ReferenceIdeal.Read.val_main_v88 (F := Ideal) x0 x1 x2 x3 x4) (Cert.ReferenceIdeal.Read.val_main_v92 (F := Ideal) x0 x1 x2 x3 x4) x5
      = Cert.ReferenceIdeal.Read.val_main_v96 (F := Ideal) x0 x1 x2 x3 x4 x5 := by
  funext i
  rw [Cert.ReferenceIdeal.Read.val_main_v96_apply, Cert.ReferenceIdeal.Read.val_main_v93_apply, Cert.ReferenceIdeal.Read.val_main_v95_apply, Cert.ReferenceIdeal.Read.val_main_v94_apply]
  have e : col32 i = Cert.ReferenceIdeal.Read.idx_main_v94 (Cert.ReferenceIdeal.Read.idx_main_v95 i) := funext fun a => by
    match a with
    | ⟨0, _⟩ => rfl
  unfold combineBias32
  rw [e]

end Cert.KernelIdeal.Layers

end
-- ==== Proof.Chain.lean ====
/-
  The contents of every segment boundary of @main, at the buffers later segments read, as the reference's stages of
  the launch contents of the arguments. Boundary 1 is after the first host stretch, 2 after the first linear map,
  3 after the second host stretch, 4 after the first combine, 5 after the second linear map, 6 after the third host
  stretch and 7 after the second combine, where the result buffer holds the reference's result.
-/
import proofs.«181619_j18056042512717_1_alg».proof.Proof.Gen.KernelIdeal.Frame
import proofs.«181619_j18056042512717_1_alg».proof.Proof.Host0
import proofs.«181619_j18056042512717_1_alg».proof.Proof.Host1
import proofs.«181619_j18056042512717_1_alg».proof.Proof.Host2
import proofs.«181619_j18056042512717_1_alg».proof.Proof.Stages

set_option maxRecDepth 16384

noncomputable section

namespace Cert.KernelIdeal.Layers

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! The launch contents of the six arguments on core c. -/
abbrev a0 : (⟨S100000x128, .f32⟩ : BufTy).Contents (Elt Ideal) := m ((c : Thread nD τ).loc main_arg0)
abbrev a1 : (⟨S2x1600000, .i32⟩ : BufTy).Contents (Elt Ideal) := m ((c : Thread nD τ).loc main_arg1)
abbrev a2 : (⟨S128x64, .f32⟩ : BufTy).Contents (Elt Ideal) := m ((c : Thread nD τ).loc main_arg2)
abbrev a3 : (⟨S64, .f32⟩ : BufTy).Contents (Elt Ideal) := m ((c : Thread nD τ).loc main_arg3)
abbrev a4 : (⟨S64x32, .f32⟩ : BufTy).Contents (Elt Ideal) := m ((c : Thread nD τ).loc main_arg4)
abbrev a5 : (⟨S32, .f32⟩ : BufTy).Contents (Elt Ideal) := m ((c : Thread nD τ).loc main_arg5)

/-! Equal arguments give equal whole-array functions. -/
theorem linear64_congr {x x' : (⟨S100000x128, .f32⟩ : BufTy).Contents (Elt Ideal)} {w w' : (⟨S128x64, .f32⟩ : BufTy).Contents (Elt Ideal)}
    (hx : x = x') (hw : w = w') : linear64 x w = linear64 x' w' := by subst hx hw; rfl
theorem linear32_congr {x x' : (⟨S100000x64, .f32⟩ : BufTy).Contents (Elt Ideal)} {w w' : (⟨S64x32, .f32⟩ : BufTy).Contents (Elt Ideal)}
    (hx : x = x') (hw : w = w') : linear32 x w = linear32 x' w' := by subst hx hw; rfl
theorem combineRelu64_congr {a a' s s' : S100000x64.Idx → Elt Ideal .f32} {b b' : S64.Idx → Elt Ideal .f32}
    (ha : a = a') (hs : s = s') (hb : b = b') : combineRelu64 a s b = combineRelu64 a' s' b' := by subst ha hs hb; rfl
theorem combineBias32_congr {a a' s s' : S100000x32.Idx → Elt Ideal .f32} {b b' : S32.Idx → Elt Ideal .f32}
    (ha : a = a') (hs : s = s') (hb : b = b') : combineBias32 a s b = combineBias32 a' s' b' := by subst ha hs hb; rfl

/-! ## Boundary 1: after the first host stretch -/

theorem w1_src : W1 m ρ c (Proc.devRef .tc main_v1) = Cert.ReferenceIdeal.Read.val_main_v1 (F := Ideal) (a1 m c) :=
  stretch0_src (W0 m ρ c) (a1 m c) rfl
theorem w1_dst : W1 m ρ c (Proc.devRef .tc main_v3) = Cert.ReferenceIdeal.Read.val_main_v3 (F := Ideal) (a1 m c) :=
  stretch0_dst (W0 m ρ c) (a1 m c) rfl
theorem w1_norm : W1 m ρ c (Proc.devRef .tc main_v25) = Cert.ReferenceIdeal.Read.val_main_v26 (F := Ideal) (a1 m c) :=
  stretch0_norm (W0 m ρ c) (a1 m c) rfl
theorem w1_dinv2 : W1 m ρ c (Proc.devRef .tc main_v26) = Cert.ReferenceIdeal.Read.val_main_v40 (F := Ideal) (a1 m c) :=
  stretch0_dinv2 (W0 m ρ c) (a1 m c) rfl
theorem w1_arg0 : W1 m ρ c (Proc.devRef .tc main_arg0) = (a0 m c) :=
  stretch0_keep_arg0 (W0 m ρ c)
theorem w1_arg2 : W1 m ρ c (Proc.devRef .tc main_arg2) = (a2 m c) :=
  stretch0_keep_arg2 (W0 m ρ c)
theorem w1_arg3 : W1 m ρ c (Proc.devRef .tc main_arg3) = (a3 m c) :=
  stretch0_keep_arg3 (W0 m ρ c)
theorem w1_arg4 : W1 m ρ c (Proc.devRef .tc main_arg4) = (a4 m c) :=
  stretch0_keep_arg4 (W0 m ρ c)
theorem w1_arg5 : W1 m ρ c (Proc.devRef .tc main_arg5) = (a5 m c) :=
  stretch0_keep_arg5 (W0 m ρ c)

/-! ## Boundary 2: after the first linear map -/

theorem w2_lin : W2 m ρ c (Proc.devRef .tc main_v27) = Cert.ReferenceIdeal.Read.val_main_v4 (F := Ideal) (a0 m c) (a2 m c) :=
  (W2_arr m ρ c 2).trans ((final0 (V1 m ρ) c).trans ((linear64_congr (w1_arg0 m ρ c) (w1_arg2 m ρ c)).trans (linear64_eq _ _)))
theorem w2_src : W2 m ρ c (Proc.devRef .tc main_v1) = Cert.ReferenceIdeal.Read.val_main_v1 (F := Ideal) (a1 m c) :=
  (W2_of_ne m ρ c main_v1 (by decide)).trans (w1_src m ρ c)
theorem w2_dst : W2 m ρ c (Proc.devRef .tc main_v3) = Cert.ReferenceIdeal.Read.val_main_v3 (F := Ideal) (a1 m c) :=
  (W2_of_ne m ρ c main_v3 (by decide)).trans (w1_dst m ρ c)
theorem w2_norm : W2 m ρ c (Proc.devRef .tc main_v25) = Cert.ReferenceIdeal.Read.val_main_v26 (F := Ideal) (a1 m c) :=
  (W2_of_ne m ρ c main_v25 (by decide)).trans (w1_norm m ρ c)
theorem w2_dinv2 : W2 m ρ c (Proc.devRef .tc main_v26) = Cert.ReferenceIdeal.Read.val_main_v40 (F := Ideal) (a1 m c) :=
  (W2_of_ne m ρ c main_v26 (by decide)).trans (w1_dinv2 m ρ c)
theorem w2_arg3 : W2 m ρ c (Proc.devRef .tc main_arg3) = (a3 m c) :=
  (W2_of_ne m ρ c main_arg3 (by decide)).trans (w1_arg3 m ρ c)
theorem w2_arg4 : W2 m ρ c (Proc.devRef .tc main_arg4) = (a4 m c) :=
  (W2_of_ne m ρ c main_arg4 (by decide)).trans (w1_arg4 m ρ c)
theorem w2_arg5 : W2 m ρ c (Proc.devRef .tc main_arg5) = (a5 m c) :=
  (W2_of_ne m ρ c main_arg5 (by decide)).trans (w1_arg5 m ρ c)

/-! ## Boundary 3: after the second host stretch -/

theorem w3_agg : W3 m ρ c (Proc.devRef .tc main_v40) = Cert.ReferenceIdeal.Read.val_main_v39 (F := Ideal) (a0 m c) (a1 m c) (a2 m c) :=
  stretch1_agg (W2 m ρ c) _ _ _ (w2_lin m ρ c) (w2_src m ρ c) (w2_dst m ρ c) (w2_norm m ρ c)
theorem w3_self : W3 m ρ c (Proc.devRef .tc main_v43) = Cert.ReferenceIdeal.Read.val_main_v43 (F := Ideal) (a0 m c) (a1 m c) (a2 m c) :=
  stretch1_self (W2 m ρ c) _ _ _ (w2_lin m ρ c) (w2_dinv2 m ρ c)
theorem w3_src : W3 m ρ c (Proc.devRef .tc main_v1) = Cert.ReferenceIdeal.Read.val_main_v1 (F := Ideal) (a1 m c) :=
  (stretch1_keep_v1 (W2 m ρ c)).trans (w2_src m ρ c)
theorem w3_dst : W3 m ρ c (Proc.devRef .tc main_v3) = Cert.ReferenceIdeal.Read.val_main_v3 (F := Ideal) (a1 m c) :=
  (stretch1_keep_v3 (W2 m ρ c)).trans (w2_dst m ρ c)
theorem w3_norm : W3 m ρ c (Proc.devRef .tc main_v25) = Cert.ReferenceIdeal.Read.val_main_v26 (F := Ideal) (a1 m c) :=
  (stretch1_keep_v25 (W2 m ρ c)).trans (w2_norm m ρ c)
theorem w3_dinv2 : W3 m ρ c (Proc.devRef .tc main_v26) = Cert.ReferenceIdeal.Read.val_main_v40 (F := Ideal) (a1 m c) :=
  (stretch1_keep_v26 (W2 m ρ c)).trans (w2_dinv2 m ρ c)
theorem w3_arg3 : W3 m ρ c (Proc.devRef .tc main_arg3) = (a3 m c) :=
  (stretch1_keep_arg3 (W2 m ρ c)).trans (w2_arg3 m ρ c)
theorem w3_arg4 : W3 m ρ c (Proc.devRef .tc main_arg4) = (a4 m c) :=
  (stretch1_keep_arg4 (W2 m ρ c)).trans (w2_arg4 m ρ c)
theorem w3_arg5 : W3 m ρ c (Proc.devRef .tc main_arg5) = (a5 m c) :=
  (stretch1_keep_arg5 (W2 m ρ c)).trans (w2_arg5 m ρ c)

/-! ## Boundary 4: after the first combine -/

theorem w4_hid : W4 m ρ c (Proc.devRef .tc main_v44) = Cert.ReferenceIdeal.Read.val_main_v48 (F := Ideal) (a0 m c) (a1 m c) (a2 m c) (a3 m c) :=
  (W4_arr m ρ c 3).trans ((final1 (V3 m ρ) c).trans ((combineRelu64_congr (w3_agg m ρ c) (w3_self m ρ c) (w3_arg3 m ρ c)).trans (combineRelu64_eq _ _ _ _)))
theorem w4_src : W4 m ρ c (Proc.devRef .tc main_v1) = Cert.ReferenceIdeal.Read.val_main_v1 (F := Ideal) (a1 m c) :=
  (W4_of_ne m ρ c main_v1 (by decide)).trans (w3_src m ρ c)
theorem w4_dst : W4 m ρ c (Proc.devRef .tc main_v3) = Cert.ReferenceIdeal.Read.val_main_v3 (F := Ideal) (a1 m c) :=
  (W4_of_ne m ρ c main_v3 (by decide)).trans (w3_dst m ρ c)
theorem w4_norm : W4 m ρ c (Proc.devRef .tc main_v25) = Cert.ReferenceIdeal.Read.val_main_v26 (F := Ideal) (a1 m c) :=
  (W4_of_ne m ρ c main_v25 (by decide)).trans (w3_norm m ρ c)
theorem w4_dinv2 : W4 m ρ c (Proc.devRef .tc main_v26) = Cert.ReferenceIdeal.Read.val_main_v40 (F := Ideal) (a1 m c) :=
  (W4_of_ne m ρ c main_v26 (by decide)).trans (w3_dinv2 m ρ c)
theorem w4_arg4 : W4 m ρ c (Proc.devRef .tc main_arg4) = (a4 m c) :=
  (W4_of_ne m ρ c main_arg4 (by decide)).trans (w3_arg4 m ρ c)
theorem w4_arg5 : W4 m ρ c (Proc.devRef .tc main_arg5) = (a5 m c) :=
  (W4_of_ne m ρ c main_arg5 (by decide)).trans (w3_arg5 m ρ c)

/-! ## Boundary 5: after the second linear map -/

theorem w5_lin : W5 m ρ c (Proc.devRef .tc main_v45) = Cert.ReferenceIdeal.Read.val_main_v53 (F := Ideal) (a0 m c) (a1 m c) (a2 m c) (a3 m c) (a4 m c) :=
  (W5_arr m ρ c 2).trans ((final2 (V4 m ρ) c).trans ((linear32_congr (w4_hid m ρ c) (w4_arg4 m ρ c)).trans (linear32_eq _ _ _ _ _)))
theorem w5_src : W5 m ρ c (Proc.devRef .tc main_v1) = Cert.ReferenceIdeal.Read.val_main_v1 (F := Ideal) (a1 m c) :=
  (W5_of_ne m ρ c main_v1 (by decide)).trans (w4_src m ρ c)
theorem w5_dst : W5 m ρ c (Proc.devRef .tc main_v3) = Cert.ReferenceIdeal.Read.val_main_v3 (F := Ideal) (a1 m c) :=
  (W5_of_ne m ρ c main_v3 (by decide)).trans (w4_dst m ρ c)
theorem w5_norm : W5 m ρ c (Proc.devRef .tc main_v25) = Cert.ReferenceIdeal.Read.val_main_v26 (F := Ideal) (a1 m c) :=
  (W5_of_ne m ρ c main_v25 (by decide)).trans (w4_norm m ρ c)
theorem w5_dinv2 : W5 m ρ c (Proc.devRef .tc main_v26) = Cert.ReferenceIdeal.Read.val_main_v40 (F := Ideal) (a1 m c) :=
  (W5_of_ne m ρ c main_v26 (by decide)).trans (w4_dinv2 m ρ c)
theorem w5_arg5 : W5 m ρ c (Proc.devRef .tc main_arg5) = (a5 m c) :=
  (W5_of_ne m ρ c main_arg5 (by decide)).trans (w4_arg5 m ρ c)

/-! ## Boundary 6: after the third host stretch -/

theorem w6_agg : W6 m ρ c (Proc.devRef .tc main_v58) = Cert.ReferenceIdeal.Read.val_main_v88 (F := Ideal) (a0 m c) (a1 m c) (a2 m c) (a3 m c) (a4 m c) :=
  stretch2_agg (W5 m ρ c) _ _ _ _ _ (w5_lin m ρ c) (w5_src m ρ c) (w5_dst m ρ c) (w5_norm m ρ c)
theorem w6_self : W6 m ρ c (Proc.devRef .tc main_v61) = Cert.ReferenceIdeal.Read.val_main_v92 (F := Ideal) (a0 m c) (a1 m c) (a2 m c) (a3 m c) (a4 m c) :=
  stretch2_self (W5 m ρ c) _ _ _ _ _ (w5_lin m ρ c) (w5_dinv2 m ρ c)
theorem w6_arg5 : W6 m ρ c (Proc.devRef .tc main_arg5) = (a5 m c) :=
  (stretch2_keep_arg5 (W5 m ρ c)).trans (w5_arg5 m ρ c)

/-! ## Boundary 7: after the second combine -/

/-- The result buffer ends at the reference's result of the launch contents of the arguments. -/
theorem w7_out : W7 m ρ c (Proc.devRef .tc main_v62) = Cert.ReferenceIdeal.Read.val_main_v96 (F := Ideal) (a0 m c) (a1 m c) (a2 m c) (a3 m c) (a4 m c) (a5 m c) :=
  (W7_arr m ρ c 3).trans ((final3 (V6 m ρ) c).trans ((combineBias32_congr (w6_agg m ρ c) (w6_self m ρ c) (w6_arg5 m ρ c)).trans (combineBias32_eq _ _ _ _ _ _)))

end Cert.KernelIdeal.Layers

end
-- ==== Proof.lean ====
/-
  The certificate of a two-layer graph convolution. Both programs compute, for each layer,
      out = (Σ over edges into a node of norm(e) · h[src(e)]  +  h · dinv²)  +  bias,      h = features · weights,
  with the first layer followed by a maximum with zero. The kernel does the two matrix products and the two combines
  in four kernel regions tiled over blocks of 10000 rows, and the edge gathers and sums on the host between them; the
  reference does everything on the host and computes the edge normalisation once per layer.

  Over the extended reals the kernel's matrix products (into a zero accumulator, through a change of float format
  that is the identity there) are the reference's: the same sum over the contracted coordinate. The kernel's combines
  are the reference's additions in the same order, and its maximum the reference's. All host operations are the same
  on both sides, applied to equal values. No law that needs finite inputs is used, so the precondition is never opened.

  The three frames are the generated ones (the reference's is its generated run with the result dropped); the
  idealization rewrote nothing, so its conjunct is trivial; for the value claim the kernel's run is re-posted with
  its result named, and that result is shown to be the reference's result stage by stage.
-/
import proofs.«181619_j18056042512717_1_alg».proof.Defs
import proofs.«181619_j18056042512717_1_alg».proof.Proof.Gen.Kernel
import proofs.«181619_j18056042512717_1_alg».proof.Proof.Gen.Kernel.Frame
import proofs.«181619_j18056042512717_1_alg».proof.Proof.Gen.KernelIdeal
import proofs.«181619_j18056042512717_1_alg».proof.Proof.Gen.KernelIdeal.Frame
import proofs.«181619_j18056042512717_1_alg».proof.Proof.Gen.ReferenceIdeal
import proofs.«181619_j18056042512717_1_alg».proof.Proof.Gen.ReferenceIdeal.Run
import proofs.«181619_j18056042512717_1_alg».proof.Proof.Gen.ReferenceIdeal.Read
import proofs.«181619_j18056042512717_1_alg».proof.Proof.Gen.Pre_finite_inputs
import proofs.«181619_j18056042512717_1_alg».proof.Proof.KernelRun
import proofs.«181619_j18056042512717_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the reference's last stage of the kernel's argument arrays: the kernel by the
    chain of segment boundaries, the reference by its own run, the arguments agreeing. -/
theorem algebraic : Cert.algebraic_KernelIdeal_ReferenceIdeal := by
  intro m ρ m' ρ' _ hagree
  refine ⟨fun c => Cert.ReferenceIdeal.Read.val_main_v96 (F := Ideal) (Cert.KernelIdeal.Layers.a0 m c) (Cert.KernelIdeal.Layers.a1 m c)
      (Cert.KernelIdeal.Layers.a2 m c) (Cert.KernelIdeal.Layers.a3 m c) (Cert.KernelIdeal.Layers.a4 m c) (Cert.KernelIdeal.Layers.a5 m c), ?_, ?_⟩
  · exact (θ_run Cert.KernelIdeal.defs _ _).mono
      (fun _ h c => ⟨(h c).1.trans (Cert.KernelIdeal.Layers.w7_out m ρ c), (h c).2⟩)
      (Cert.KernelIdeal.Layers.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v96_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
